-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S_ : Shape := ⟨0, ![]⟩

class Facts : Prop where
  bcast_S_S2048x64x128 : S_.BroadcastsInDim S2048x64x128 (![] : Fin 0 → Fin S2048x64x128.rank)
  reducesTo_S2048x64x128_S_d0_1_2 : S2048x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S10x16384 : S_.BroadcastsInDim S10x16384 (![] : Fin 0 → Fin S10x16384.rank)
  reducesTo_S10x16384_S_d0_1 : S10x16384.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S10 .f32) (main_v13 : IVec S_ 1) (main_v16 : IVec S10x16384 1) : IVec S_ 1 :=
  let main_c_5 : IVec S_ 1 := constantI S_ 1 1#1
  let main_v17 : IVec S_ 1 := (fun x v => Host.reduce IntOp.andi x v reducesTo_S10x16384_S_d0_1 h_S_) main_v16 main_c_5
  let main_v18 : IVec S_ 1 := andi main_v13 main_v17
  let main_v19 : FVec F S10 .f32 := Host.absf main_arg4
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  main_v23

def fn {F : FTy → Type} [FloatOps F] (main_arg0 : FVec F S2048x64x128 .f32) (main_arg1 : FVec F S128x128 .f32) (main_arg2 : FVec F S128 .f32) (main_arg3 : FVec F S10x16384 .f32) (main_arg4 : FVec F S10 .f32) : IVec S_ 1 :=
  let main_v0 : FVec F S2048x64x128 .f32 := Host.absf main_arg0
  let main_cst : FVec F S_ .f32 := constant S_ .f32 0x7F800000#32
  let main_v1 : FVec F S2048x64x128 .f32 := broadcastInDim S2048x64x128 ![] bcast_S_S2048x64x128 main_cst
  let main_v2 : IVec S2048x64x128 1 := cmpf .olt main_v0 main_v1
  let main_c : IVec S_ 1 := constantI S_ 1 1#1
  let main_v3 : IVec S_ 1 := (fun x v => Host.reduce IntOp.andi x v reducesTo_S2048x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S10x16384 .f32 := Host.absf main_arg3
  let main_cst_4 : FVec F S_ .f32 := constant S_ .f32 0x7F800000#32
  let main_v15 : FVec F S10x16384 .f32 := broadcastInDim S10x16384 ![] bcast_S_S10x16384 main_cst_4
  let main_v16 : IVec S10x16384 1 := cmpf .olt main_v14 main_v15
  fn_part1 (F := F) main_arg4 main_v13 main_v16
-- ==== Kernel.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S2048x10 : Shape := ⟨2, ![2048, 10]⟩
abbrev S64x64x128 : Shape := ⟨3, ![64, 64, 128]⟩
abbrev S64x10 : Shape := ⟨2, ![64, 10]⟩
abbrev S64x128x128 : Shape := ⟨3, ![64, 128, 128]⟩
abbrev S8192x128 : Shape := ⟨2, ![8192, 128]⟩
abbrev S1x128 : Shape := ⟨2, ![1, 128]⟩
abbrev S64x16384 : Shape := ⟨2, ![64, 16384]⟩
abbrev S1x10 : Shape := ⟨2, ![1, 10]⟩

abbrev nBuf : Space → Nat
  | .hbm => 8
  | .vmem => 8
  | .smem => 0
  | _ => 0

abbrev bufTy : (tb : Table) → Fin (tcTables nBuf tb) → BufTy
  | .hbm, ⟨0, _⟩ => ⟨S2048x64x128, .f32⟩
  | .hbm, ⟨1, _⟩ => ⟨S128x128, .f32⟩
  | .hbm, ⟨2, _⟩ => ⟨S128, .f32⟩
  | .hbm, ⟨3, _⟩ => ⟨S10x16384, .f32⟩
  | .hbm, ⟨4, _⟩ => ⟨S10, .f32⟩
  | .hbm, ⟨5, _⟩ => ⟨S128x128, .bf16⟩
  | .hbm, ⟨6, _⟩ => ⟨S10x16384, .bf16⟩
  | .hbm, ⟨7, _⟩ => ⟨S2048x10, .f32⟩
  | .local _ .vmem, ⟨0, _⟩ => ⟨S64x64x128, .f32⟩
  | .local _ .vmem, ⟨1, _⟩ => ⟨S64x64x128, .f32⟩
  | .local _ .vmem, ⟨2, _⟩ => ⟨S128x128, .bf16⟩
  | .local _ .vmem, ⟨3, _⟩ => ⟨S128, .f32⟩
  | .local _ .vmem, ⟨4, _⟩ => ⟨S10x16384, .bf16⟩
  | .local _ .vmem, ⟨5, _⟩ => ⟨S10, .f32⟩
  | .local _ .vmem, ⟨6, _⟩ => ⟨S64x10, .f32⟩
  | .local _ .vmem, ⟨7, _⟩ => ⟨S64x10, .f32⟩
  | _, _ => ⟨S2048x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x16384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S64x64x128_S64x64x128_0_0_0 : ∀ a, (![0, 0, 0] : Fin 3 → Nat) a + S64x64x128.size a ≤ S64x64x128.size a
  h_S64x64x128 : 0 < S64x64x128.numel
  shapeCasts_S64x128x128_S8192x128 : S64x128x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S64x128x128 : S8192x128.ShapeCasts S64x128x128
  shapeCasts_S64x128x128_S64x16384 : S64x128x128.ShapeCasts S64x16384
  inb_S10x16384_S10x16384_0_0 : ∀ a, (![0, 0] : Fin 2 → Nat) a + S10x16384.size a ≤ S10x16384.size a
  h_S10x16384 : 0 < S10x16384.numel
  shapeCasts_S10x16384_S10x16384 : S10x16384.ShapeCasts S10x16384
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  dot_S64x64x128_S64x64x128_S64x128x128_1_1_2_2_0_0_wf : DotDims.WF S64x64x128 S64x64x128 S64x128x128 [1] [1] [2] [2] [0] [0]
  dot_S8192x128_S128x128_S8192x128_1_1_0_0_n_n_wf : DotDims.WF S8192x128 S128x128 S8192x128 [1] [1] [0] [0] [] []
  dot_S64x128x128_S64x128x128_S64x128x128_1_1_2_2_0_0_wf : DotDims.WF S64x128x128 S64x128x128 S64x128x128 [1] [1] [2] [2] [0] [0]
  dot_S64x16384_S10x16384_S64x10_1_1_0_0_n_n_wf : DotDims.WF S64x16384 S10x16384 S64x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S2048x64x128.size a
  hwx0_0 : ∀ i : grid0.Coords, EltTy.bits .f32 = 32 ∨ (Rect.block (s := S2048x64x128) S64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x16384.size a ≤ S10x16384.size a
  hwx0_3 : ∀ i : grid0.Coords, EltTy.bits .bf16 = 32 ∨ (Rect.block (s := S10x16384) S10x16384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10.size a ≤ S10.size a
  hwx0_4 : ∀ i : grid0.Coords, EltTy.bits .f32 = 32 ∨ (Rect.block (s := S10) S10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x10.size a ≤ S2048x10.size a
  hwx0_5 : ∀ i : grid0.Coords, EltTy.bits .f32 = 32 ∨ (Rect.block (s := S2048x10) S64x10.size (cc0_transform_5 i) (hinb0_5 i)).WholeWords (EltTy.packing .f32)

variable [Facts₀]

def dot_S64x64x128_S64x64x128_S64x128x128_1_1_2_2_0_0 : DotDims S64x64x128 S64x64x128 S64x128x128 where
  lhsContracting := [1]
  rhsContracting := [1]
  lhsNonContracting := [2]
  rhsNonContracting := [2]
  lhsBatch := [0]
  rhsBatch := [0]
  wf := dot_S64x64x128_S64x64x128_S64x128x128_1_1_2_2_0_0_wf
def dot_S8192x128_S128x128_S8192x128_1_1_0_0_n_n : DotDims S8192x128 S128x128 S8192x128 where
  lhsContracting := [1]
  rhsContracting := [1]
  lhsNonContracting := [0]
  rhsNonContracting := [0]
  lhsBatch := []
  rhsBatch := []
  wf := dot_S8192x128_S128x128_S8192x128_1_1_0_0_n_n_wf
def dot_S64x128x128_S64x128x128_S64x128x128_1_1_2_2_0_0 : DotDims S64x128x128 S64x128x128 S64x128x128 where
  lhsContracting := [1]
  rhsContracting := [1]
  lhsNonContracting := [2]
  rhsNonContracting := [2]
  lhsBatch := [0]
  rhsBatch := [0]
  wf := dot_S64x128x128_S64x128x128_S64x128x128_1_1_2_2_0_0_wf
def dot_S64x16384_S10x16384_S64x10_1_1_0_0_n_n : DotDims S64x16384 S10x16384 S64x10 where
  lhsContracting := [1]
  rhsContracting := [1]
  lhsNonContracting := [0]
  rhsNonContracting := [0]
  lhsBatch := []
  rhsBatch := []
  wf := dot_S64x16384_S10x16384_S64x10_1_1_0_0_n_n_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S10x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x128 : Shape := ⟨3, ![2048, 64, 128]⟩
abbrev S128x128 : Shape := ⟨2, ![128, 128]⟩
abbrev S128 : Shape := ⟨1, ![128]⟩
abbrev S10x16384 : Shape := ⟨2, ![10, 16384]⟩
abbrev S10 : Shape := ⟨1, ![10]⟩
abbrev S2048x128x128 : Shape := ⟨3, ![2048, 128, 128]⟩
abbrev S_ : Shape := ⟨0, ![]⟩
abbrev S1x1x128 : Shape := ⟨3, ![1, 1, 128]⟩
abbrev S2048x16384 : Shape := ⟨2, ![2048, 16384]⟩
abbrev S16384x10 : Shape := ⟨2, ![16384, 10]⟩
abbrev S2048x10 : Shape := ⟨2, ![2048, 10]⟩
abbrev S1x10 : Shape := ⟨2, ![1, 10]⟩

abbrev nBuf : Space → Nat
  | .hbm => 24
  | .vmem => 0
  | .smem => 0
  | _ => 0

abbrev bufTy : (tb : Table) → Fin (tcTables nBuf tb) → BufTy
  | .hbm, ⟨0, _⟩ => ⟨S2048x64x128, .f32⟩
  | .hbm, ⟨1, _⟩ => ⟨S128x128, .f32⟩
  | .hbm, ⟨2, _⟩ => ⟨S128, .f32⟩
  | .hbm, ⟨3, _⟩ => ⟨S10x16384, .f32⟩
  | .hbm, ⟨4, _⟩ => ⟨S10, .f32⟩
  | .hbm, ⟨5, _⟩ => ⟨S2048x128x128, .f32⟩
  | .hbm, ⟨6, _⟩ => ⟨S_, .f32⟩
  | .hbm, ⟨7, _⟩ => ⟨S2048x128x128, .f32⟩
  | .hbm, ⟨8, _⟩ => ⟨S2048x128x128, .f32⟩
  | .hbm, ⟨9, _⟩ => ⟨S2048x128x128, .f32⟩
  | .hbm, ⟨10, _⟩ => ⟨S_, .f32⟩
  | .hbm, ⟨11, _⟩ => ⟨S2048x128x128, .f32⟩
  | .hbm, ⟨12, _⟩ => ⟨S2048x128x128, .f32⟩
  | .hbm, ⟨13, _⟩ => ⟨S2048x128x128, .f32⟩
  | .hbm, ⟨14, _⟩ => ⟨S1x1x128, .f32⟩
  | .hbm, ⟨15, _⟩ => ⟨S2048x128x128, .f32⟩
  | .hbm, ⟨16, _⟩ => ⟨S2048x128x128, .f32⟩
  | .hbm, ⟨17, _⟩ => ⟨S2048x128x128, .f32⟩
  | .hbm, ⟨18, _⟩ => ⟨S2048x16384, .f32⟩
  | .hbm, ⟨19, _⟩ => ⟨S16384x10, .f32⟩
  | .hbm, ⟨20, _⟩ => ⟨S2048x10, .f32⟩
  | .hbm, ⟨21, _⟩ => ⟨S1x10, .f32⟩
  | .hbm, ⟨22, _⟩ => ⟨S2048x10, .f32⟩
  | .hbm, ⟨23, _⟩ => ⟨S2048x10, .f32⟩
  | _, _ => ⟨S2048x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S_S2048x128x128 : S_.BroadcastsInDim S2048x128x128 (![] : Fin 0 → Fin S2048x128x128.rank)
  bcast_S128_S1x1x128_2 : S128.BroadcastsInDim S1x1x128 (![2] : Fin 1 → Fin S1x1x128.rank)
  bcast_S1x1x128_S2048x128x128_0_1_2 : S1x1x128.BroadcastsInDim S2048x128x128 (![0, 1, 2] : Fin 3 → Fin S2048x128x128.rank)
  shapeCasts_S2048x128x128_S2048x16384 : S2048x128x128.ShapeCasts S2048x16384
  transposes_S10x16384_S16384x10_1_0 : S10x16384.Transposes [1, 0] S16384x10
  bcast_S10_S1x10_1 : S10.BroadcastsInDim S1x10 (![1] : Fin 1 → Fin S1x10.rank)
  bcast_S1x10_S2048x10_0_1 : S1x10.BroadcastsInDim S2048x10 (![0, 1] : Fin 2 → Fin S2048x10.rank)
  dot_S2048x64x128_S2048x64x128_S2048x128x128_1_1_2_2_0_0_wf : DotDims.WF S2048x64x128 S2048x64x128 S2048x128x128 [1] [1] [2] [2] [0] [0]
  dot_S2048x128x128_S128x128_S2048x128x128_2_1_01_0_n_n_wf : DotDims.WF S2048x128x128 S128x128 S2048x128x128 [2] [1] [0, 1] [0] [] []
  dot_S2048x128x128_S2048x128x128_S2048x128x128_1_1_2_2_0_0_wf : DotDims.WF S2048x128x128 S2048x128x128 S2048x128x128 [1] [1] [2] [2] [0] [0]
  dot_S2048x16384_S16384x10_S2048x10_1_0_0_1_n_n_wf : DotDims.WF S2048x16384 S16384x10 S2048x10 [1] [0] [0] [1] [] []

variable [Facts₀]

def dot_S2048x64x128_S2048x64x128_S2048x128x128_1_1_2_2_0_0 : DotDims S2048x64x128 S2048x64x128 S2048x128x128 where
  lhsContracting := [1]
  rhsContracting := [1]
  lhsNonContracting := [2]
  rhsNonContracting := [2]
  lhsBatch := [0]
  rhsBatch := [0]
  wf := dot_S2048x64x128_S2048x64x128_S2048x128x128_1_1_2_2_0_0_wf
def dot_S2048x128x128_S128x128_S2048x128x128_2_1_01_0_n_n : DotDims S2048x128x128 S128x128 S2048x128x128 where
  lhsContracting := [2]
  rhsContracting := [1]
  lhsNonContracting := [0, 1]
  rhsNonContracting := [0]
  lhsBatch := []
  rhsBatch := []
  wf := dot_S2048x128x128_S128x128_S2048x128x128_2_1_01_0_n_n_wf
def dot_S2048x128x128_S2048x128x128_S2048x128x128_1_1_2_2_0_0 : DotDims S2048x128x128 S2048x128x128 S2048x128x128 where
  lhsContracting := [1]
  rhsContracting := [1]
  lhsNonContracting := [2]
  rhsNonContracting := [2]
  lhsBatch := [0]
  rhsBatch := [0]
  wf := dot_S2048x128x128_S2048x128x128_S2048x128x128_1_1_2_2_0_0_wf
def dot_S2048x16384_S16384x10_S2048x10_1_0_0_1_n_n : DotDims S2048x16384 S16384x10 S2048x10 where
  lhsContracting := [1]
  rhsContracting := [0]
  lhsNonContracting := [0]
  rhsNonContracting := [1]
  lhsBatch := []
  rhsBatch := []
  wf := dot_S2048x16384_S16384x10_S2048x10_1_0_0_1_n_n_wf

class Facts : Prop extends Facts₀ where

variable [Facts]
-- ==== Proof.Spec.lean ====
/-
  The function both programs compute, written once over plain coordinates.

  For one graph with node features `x : 64 × 128` (nodes × features):
    * the Gram matrix `x^T x` (128 × 128), each entry rounded to two decimals: multiplied by 100, rounded half to
      even, divided by 100;
    * attention coefficients: every row of that matrix through a linear layer, `attn d k = (∑ e, q d e · W k e) + b k`;
    * the pooled matrix `attn^T · q`, `pooled k e = ∑ d, attn d k · q d e`;
    * the pooled matrix flattened row-major (16384 entries) through a second linear layer with weights
      `W1 : 10 × 16384` and bias `b1`.
  A graph's ten outputs depend on that graph's features only, which is why the computation may be done 64 graphs at a
  time. Everything is a sum of products in one fixed arrangement, so no law of the extended reals beyond the reading of
  the two programs' index conventions is needed: neither distributivity nor finiteness of the inputs.
-/
import Idealize.ShloMosaic.PureOps.Ideal
import Idealize.ShloMosaic.Lib.ValueIdx

noncomputable section

namespace Cert.GramPool

open Idealize.ShloMosaic Idealize.ShloMosaic.ValueIdx

/-- The scale of the two-decimal rounding: the f32 word of `100.0`, the same word in both programs, never evaluated. -/
def hundred : EReal := Ideal.ofBits .f32 0x42C80000#32

/-- Rounding to two decimals on the extended reals: scale by 100, round to the nearest integer with ties to even
    (infinities fixed), divide by 100. -/
def quant (s : EReal) : EReal := Ideal.div (Ideal.liftRound Ideal.roundHalfEven (s * hundred)) hundred

/-- Entry `(d, e)` of one graph's quantized Gram matrix: the inner product of feature columns `d` and `e` over the
    64 nodes, rounded to two decimals. -/
def gramQ (x : Fin 64 → Fin 128 → EReal) (d e : Fin 128) : EReal := quant (∑ n : Fin 64, x n d * x n e)

/-- Attention coefficient `(d, k)`: row `d` of the quantized Gram matrix against row `k` of the weights, plus the bias. -/
def attn (x : Fin 64 → Fin 128 → EReal) (W : Fin 128 → Fin 128 → EReal) (b : Fin 128 → EReal) (d k : Fin 128) : EReal :=
  (∑ e : Fin 128, gramQ x d e * W k e) + b k

/-- Entry `(k, e)` of the pooled matrix `attn^T · q`. -/
def pooled (x : Fin 64 → Fin 128 → EReal) (W : Fin 128 → Fin 128 → EReal) (b : Fin 128 → EReal) (k e : Fin 128) : EReal :=
  ∑ d : Fin 128, attn x W b d k * gramQ x d e

/-- The pooled matrix read row-major at the flat position `j = 128·k + e`. -/
def pooledFlat (x : Fin 64 → Fin 128 → EReal) (W : Fin 128 → Fin 128 → EReal) (b : Fin 128 → EReal) (j : Fin 16384) : EReal :=
  pooled x W b ⟨j.val / 128, by have := j.isLt; omega⟩ ⟨j.val % 128, Nat.mod_lt _ (by decide)⟩

/-- Output `o` of one graph: the flattened pooled matrix against row `o` of the last layer's weights, plus its bias. -/
def out (x : Fin 64 → Fin 128 → EReal) (W : Fin 128 → Fin 128 → EReal) (b : Fin 128 → EReal)
    (W1 : Fin 10 → Fin 16384 → EReal) (b1 : Fin 10 → EReal) (o : Fin 10) : EReal :=
  (∑ j : Fin 16384, pooledFlat x W b j * W1 o j) + b1 o

/-- The whole result over `G` graphs, index by index: row `g` is `out` of graph `g`'s slice of the features. -/
def result {G : Nat} (x : (⟨3, ![G, 64, 128]⟩ : Shape).Idx → EReal) (W : (⟨2, ![128, 128]⟩ : Shape).Idx → EReal)
    (b : (⟨1, ![128]⟩ : Shape).Idx → EReal) (W1 : (⟨2, ![10, 16384]⟩ : Shape).Idx → EReal)
    (b1 : (⟨1, ![10]⟩ : Shape).Idx → EReal) (g : Fin G) (o : Fin 10) : EReal :=
  out (fun n d => x (ix3 g n d)) (fun k e => W (ix2 k e)) (fun k => b (ix1 k)) (fun o' j => W1 (ix2 o' j)) (fun o' => b1 (ix1 o')) o

/-- The result at `(g, o)` depends on graph `g`'s slice of the features and on the weights and biases entry by entry:
    two families of arrays that agree there give the same result — the features may even sit in stacks of different
    heights, at different rows. -/
theorem result_ext {G G' : Nat} (x : (⟨3, ![G, 64, 128]⟩ : Shape).Idx → EReal) (x' : (⟨3, ![G', 64, 128]⟩ : Shape).Idx → EReal)
    (W W' : (⟨2, ![128, 128]⟩ : Shape).Idx → EReal) (b b' : (⟨1, ![128]⟩ : Shape).Idx → EReal)
    (W1 W1' : (⟨2, ![10, 16384]⟩ : Shape).Idx → EReal) (b1 b1' : (⟨1, ![10]⟩ : Shape).Idx → EReal)
    (g : Fin G) (g' : Fin G') (o o' : Fin 10) (ho : o' = o)
    (hx : ∀ (n : Fin 64) (d : Fin 128), x (ix3 g n d) = x' (ix3 g' n d))
    (hW : ∀ k e : Fin 128, W (ix2 k e) = W' (ix2 k e)) (hb : ∀ k : Fin 128, b (ix1 k) = b' (ix1 k))
    (hW1 : ∀ (p : Fin 10) (j : Fin 16384), W1 (ix2 p j) = W1' (ix2 p j)) (hb1 : ∀ p : Fin 10, b1 (ix1 p) = b1' (ix1 p)) :
    result x W b W1 b1 g o = result x' W' b' W1' b1' g' o' := by
  subst ho
  unfold result
  rw [show (fun n d => x (ix3 g n d)) = fun n d => x' (ix3 g' n d) from funext fun n => funext fun d => hx n d,
    show (fun k e => W (ix2 k e)) = fun k e => W' (ix2 k e) from funext fun k => funext fun e => hW k e,
    show (fun k => b (ix1 k)) = fun k => b' (ix1 k) from funext hb,
    show (fun p j => W1 (ix2 p j)) = fun p j => W1' (ix2 p j) from funext fun p => funext fun j => hW1 p j,
    show (fun p => b1 (ix1 p)) = fun p => b1' (ix1 p) from funext hb1]

end Cert.GramPool

end
-- ==== Proof.KernelDots.lean ====
/-
  The kernel's four matrix products, each read at one output entry as the sum over its one contracted axis, with both
  operand indices written by coordinates:
    * the Gram product contracts the node axis of two copies of a [64, 64, 128] block, graph by graph;
    * the linear layer contracts the feature axis of an [8192, 128] matrix (64 graphs × 128 rows) with a [128, 128]
      weight matrix given output-major;
    * the pooling product contracts the row axis of two [64, 128, 128] stacks, graph by graph;
    * the last layer contracts the 16384 flattened entries with a [10, 16384] weight matrix given output-major.
  All accumulate into the zero splat, so each entry is just the sum.
-/
import proofs.«131009_j4526895530498_2_alg».proof.Proof.Gen.KernelIdeal
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## Where each product's operands are read: one coordinate at a time -/

theorem lhs_gram_0 (i : S64x128x128.Idx) (q : dot_S64x64x128_S64x64x128_S64x128x128_1_1_2_2_0_0.contr.Idx) :
    (dot_S64x64x128_S64x64x128_S64x128x128_1_1_2_2_0_0.lhsIdx i q 0).val = (i 0).val := by
  unfold DotDims.lhsIdx
  rw [dif_pos (show (0 : Fin S64x64x128.rank) ∈ dot_S64x64x128_S64x64x128_S64x128x128_1_1_2_2_0_0.lhsBatch by decide)]
  rfl
theorem lhs_gram_1 (i : S64x128x128.Idx) (q : dot_S64x64x128_S64x64x128_S64x128x128_1_1_2_2_0_0.contr.Idx) :
    (dot_S64x64x128_S64x64x128_S64x128x128_1_1_2_2_0_0.lhsIdx i q 1).val = (q ⟨0, by decide⟩).val :=
  dot_S64x64x128_S64x64x128_S64x128x128_1_1_2_2_0_0.lhsIdx_val_of_single rfl i q
theorem lhs_gram_2 (i : S64x128x128.Idx) (q : dot_S64x64x128_S64x64x128_S64x128x128_1_1_2_2_0_0.contr.Idx) :
    (dot_S64x64x128_S64x64x128_S64x128x128_1_1_2_2_0_0.lhsIdx i q 2).val = (i 1).val := by
  unfold DotDims.lhsIdx
  rw [dif_neg (show ¬(2 : Fin S64x64x128.rank) ∈ dot_S64x64x128_S64x64x128_S64x128x128_1_1_2_2_0_0.lhsBatch by decide), dif_pos (show (2 : Fin S64x64x128.rank) ∈ dot_S64x64x128_S64x64x128_S64x128x128_1_1_2_2_0_0.lhsNonContracting by decide)]
  rfl
theorem rhs_gram_0 (i : S64x128x128.Idx) (q : dot_S64x64x128_S64x64x128_S64x128x128_1_1_2_2_0_0.contr.Idx) :
    (dot_S64x64x128_S64x64x128_S64x128x128_1_1_2_2_0_0.rhsIdx i q 0).val = (i 0).val := by
  unfold DotDims.rhsIdx
  rw [dif_pos (show (0 : Fin S64x64x128.rank) ∈ dot_S64x64x128_S64x64x128_S64x128x128_1_1_2_2_0_0.rhsBatch by decide)]
  rfl
theorem rhs_gram_1 (i : S64x128x128.Idx) (q : dot_S64x64x128_S64x64x128_S64x128x128_1_1_2_2_0_0.contr.Idx) :
    (dot_S64x64x128_S64x64x128_S64x128x128_1_1_2_2_0_0.rhsIdx i q 1).val = (q ⟨0, by decide⟩).val :=
  dot_S64x64x128_S64x64x128_S64x128x128_1_1_2_2_0_0.rhsIdx_val_of_single rfl i q
theorem rhs_gram_2 (i : S64x128x128.Idx) (q : dot_S64x64x128_S64x64x128_S64x128x128_1_1_2_2_0_0.contr.Idx) :
    (dot_S64x64x128_S64x64x128_S64x128x128_1_1_2_2_0_0.rhsIdx i q 2).val = (i 2).val := by
  unfold DotDims.rhsIdx
  rw [dif_neg (show ¬(2 : Fin S64x64x128.rank) ∈ dot_S64x64x128_S64x64x128_S64x128x128_1_1_2_2_0_0.rhsBatch by decide), dif_pos (show (2 : Fin S64x64x128.rank) ∈ dot_S64x64x128_S64x64x128_S64x128x128_1_1_2_2_0_0.rhsNonContracting by decide)]
  rfl

theorem lhs_lin_0 (i : S8192x128.Idx) (q : dot_S8192x128_S128x128_S8192x128_1_1_0_0_n_n.contr.Idx) :
    (dot_S8192x128_S128x128_S8192x128_1_1_0_0_n_n.lhsIdx i q 0).val = (i 0).val := by
  unfold DotDims.lhsIdx
  rw [dif_neg (show ¬(0 : Fin S8192x128.rank) ∈ dot_S8192x128_S128x128_S8192x128_1_1_0_0_n_n.lhsBatch by decide), dif_pos (show (0 : Fin S8192x128.rank) ∈ dot_S8192x128_S128x128_S8192x128_1_1_0_0_n_n.lhsNonContracting by decide)]
  rfl
theorem lhs_lin_1 (i : S8192x128.Idx) (q : dot_S8192x128_S128x128_S8192x128_1_1_0_0_n_n.contr.Idx) :
    (dot_S8192x128_S128x128_S8192x128_1_1_0_0_n_n.lhsIdx i q 1).val = (q ⟨0, by decide⟩).val :=
  dot_S8192x128_S128x128_S8192x128_1_1_0_0_n_n.lhsIdx_val_of_single rfl i q
theorem rhs_lin_0 (i : S8192x128.Idx) (q : dot_S8192x128_S128x128_S8192x128_1_1_0_0_n_n.contr.Idx) :
    (dot_S8192x128_S128x128_S8192x128_1_1_0_0_n_n.rhsIdx i q 0).val = (i 1).val := by
  unfold DotDims.rhsIdx
  rw [dif_neg (show ¬(0 : Fin S128x128.rank) ∈ dot_S8192x128_S128x128_S8192x128_1_1_0_0_n_n.rhsBatch by decide), dif_pos (show (0 : Fin S128x128.rank) ∈ dot_S8192x128_S128x128_S8192x128_1_1_0_0_n_n.rhsNonContracting by decide)]
  rfl
theorem rhs_lin_1 (i : S8192x128.Idx) (q : dot_S8192x128_S128x128_S8192x128_1_1_0_0_n_n.contr.Idx) :
    (dot_S8192x128_S128x128_S8192x128_1_1_0_0_n_n.rhsIdx i q 1).val = (q ⟨0, by decide⟩).val :=
  dot_S8192x128_S128x128_S8192x128_1_1_0_0_n_n.rhsIdx_val_of_single rfl i q

theorem lhs_pool_0 (i : S64x128x128.Idx) (q : dot_S64x128x128_S64x128x128_S64x128x128_1_1_2_2_0_0.contr.Idx) :
    (dot_S64x128x128_S64x128x128_S64x128x128_1_1_2_2_0_0.lhsIdx i q 0).val = (i 0).val := by
  unfold DotDims.lhsIdx
  rw [dif_pos (show (0 : Fin S64x128x128.rank) ∈ dot_S64x128x128_S64x128x128_S64x128x128_1_1_2_2_0_0.lhsBatch by decide)]
  rfl
theorem lhs_pool_1 (i : S64x128x128.Idx) (q : dot_S64x128x128_S64x128x128_S64x128x128_1_1_2_2_0_0.contr.Idx) :
    (dot_S64x128x128_S64x128x128_S64x128x128_1_1_2_2_0_0.lhsIdx i q 1).val = (q ⟨0, by decide⟩).val :=
  dot_S64x128x128_S64x128x128_S64x128x128_1_1_2_2_0_0.lhsIdx_val_of_single rfl i q
theorem lhs_pool_2 (i : S64x128x128.Idx) (q : dot_S64x128x128_S64x128x128_S64x128x128_1_1_2_2_0_0.contr.Idx) :
    (dot_S64x128x128_S64x128x128_S64x128x128_1_1_2_2_0_0.lhsIdx i q 2).val = (i 1).val := by
  unfold DotDims.lhsIdx
  rw [dif_neg (show ¬(2 : Fin S64x128x128.rank) ∈ dot_S64x128x128_S64x128x128_S64x128x128_1_1_2_2_0_0.lhsBatch by decide), dif_pos (show (2 : Fin S64x128x128.rank) ∈ dot_S64x128x128_S64x128x128_S64x128x128_1_1_2_2_0_0.lhsNonContracting by decide)]
  rfl
theorem rhs_pool_0 (i : S64x128x128.Idx) (q : dot_S64x128x128_S64x128x128_S64x128x128_1_1_2_2_0_0.contr.Idx) :
    (dot_S64x128x128_S64x128x128_S64x128x128_1_1_2_2_0_0.rhsIdx i q 0).val = (i 0).val := by
  unfold DotDims.rhsIdx
  rw [dif_pos (show (0 : Fin S64x128x128.rank) ∈ dot_S64x128x128_S64x128x128_S64x128x128_1_1_2_2_0_0.rhsBatch by decide)]
  rfl
theorem rhs_pool_1 (i : S64x128x128.Idx) (q : dot_S64x128x128_S64x128x128_S64x128x128_1_1_2_2_0_0.contr.Idx) :
    (dot_S64x128x128_S64x128x128_S64x128x128_1_1_2_2_0_0.rhsIdx i q 1).val = (q ⟨0, by decide⟩).val :=
  dot_S64x128x128_S64x128x128_S64x128x128_1_1_2_2_0_0.rhsIdx_val_of_single rfl i q
theorem rhs_pool_2 (i : S64x128x128.Idx) (q : dot_S64x128x128_S64x128x128_S64x128x128_1_1_2_2_0_0.contr.Idx) :
    (dot_S64x128x128_S64x128x128_S64x128x128_1_1_2_2_0_0.rhsIdx i q 2).val = (i 2).val := by
  unfold DotDims.rhsIdx
  rw [dif_neg (show ¬(2 : Fin S64x128x128.rank) ∈ dot_S64x128x128_S64x128x128_S64x128x128_1_1_2_2_0_0.rhsBatch by decide), dif_pos (show (2 : Fin S64x128x128.rank) ∈ dot_S64x128x128_S64x128x128_S64x128x128_1_1_2_2_0_0.rhsNonContracting by decide)]
  rfl

theorem lhs_last_0 (i : S64x10.Idx) (q : dot_S64x16384_S10x16384_S64x10_1_1_0_0_n_n.contr.Idx) :
    (dot_S64x16384_S10x16384_S64x10_1_1_0_0_n_n.lhsIdx i q 0).val = (i 0).val := by
  unfold DotDims.lhsIdx
  rw [dif_neg (show ¬(0 : Fin S64x16384.rank) ∈ dot_S64x16384_S10x16384_S64x10_1_1_0_0_n_n.lhsBatch by decide), dif_pos (show (0 : Fin S64x16384.rank) ∈ dot_S64x16384_S10x16384_S64x10_1_1_0_0_n_n.lhsNonContracting by decide)]
  rfl
theorem lhs_last_1 (i : S64x10.Idx) (q : dot_S64x16384_S10x16384_S64x10_1_1_0_0_n_n.contr.Idx) :
    (dot_S64x16384_S10x16384_S64x10_1_1_0_0_n_n.lhsIdx i q 1).val = (q ⟨0, by decide⟩).val :=
  dot_S64x16384_S10x16384_S64x10_1_1_0_0_n_n.lhsIdx_val_of_single rfl i q
theorem rhs_last_0 (i : S64x10.Idx) (q : dot_S64x16384_S10x16384_S64x10_1_1_0_0_n_n.contr.Idx) :
    (dot_S64x16384_S10x16384_S64x10_1_1_0_0_n_n.rhsIdx i q 0).val = (i 1).val := by
  unfold DotDims.rhsIdx
  rw [dif_neg (show ¬(0 : Fin S10x16384.rank) ∈ dot_S64x16384_S10x16384_S64x10_1_1_0_0_n_n.rhsBatch by decide), dif_pos (show (0 : Fin S10x16384.rank) ∈ dot_S64x16384_S10x16384_S64x10_1_1_0_0_n_n.rhsNonContracting by decide)]
  rfl
theorem rhs_last_1 (i : S64x10.Idx) (q : dot_S64x16384_S10x16384_S64x10_1_1_0_0_n_n.contr.Idx) :
    (dot_S64x16384_S10x16384_S64x10_1_1_0_0_n_n.rhsIdx i q 1).val = (q ⟨0, by decide⟩).val :=
  dot_S64x16384_S10x16384_S64x10_1_1_0_0_n_n.rhsIdx_val_of_single rfl i q

/-! ## The four products at an entry -/

/-- Gram product: entry `(g, d, e)` is the sum over the nodes `n` of `a (g, n, d) · b (g, n, e)`. -/
theorem gram_apply (prec : Option ContractPrecision) (a b : FVec Ideal S64x64x128 .f32) (g : Fin 64) (d e : Fin 128) :
    matmul dot_S64x64x128_S64x64x128_S64x128x128_1_1_2_2_0_0 prec a b (constant S64x128x128 .f32 0x00000000#32) (ix3 g d e)
      = ∑ n : Fin 64, a (ix3 g n d) * b (ix3 g n e) := by
  show FloatOps.matmul dot_S64x64x128_S64x64x128_S64x128x128_1_1_2_2_0_0 prec a b (constant S64x128x128 .f32 0x00000000#32) (ix3 g d e) = _
  rw [Ideal.matmul_constant_zero_apply, ← Equiv.sum_comp (contrEquiv1 dot_S64x64x128_S64x64x128_S64x128x128_1_1_2_2_0_0 64 rfl rfl).symm]
  refine Finset.sum_congr rfl fun k _ => ?_
  have hk := contrEquiv1_symm_val dot_S64x64x128_S64x64x128_S64x128x128_1_1_2_2_0_0 64 rfl rfl k
  have el : dot_S64x64x128_S64x64x128_S64x128x128_1_1_2_2_0_0.lhsIdx (ix3 g d e) ((contrEquiv1 dot_S64x64x128_S64x64x128_S64x128x128_1_1_2_2_0_0 64 rfl rfl).symm k) = ix3 g k d := funext fun x => Fin.ext (by
    match x with
    | ⟨0, _⟩ => exact lhs_gram_0 _ _
    | ⟨1, _⟩ => exact (lhs_gram_1 _ _).trans hk
    | ⟨2, _⟩ => exact lhs_gram_2 _ _)
  have er : dot_S64x64x128_S64x64x128_S64x128x128_1_1_2_2_0_0.rhsIdx (ix3 g d e) ((contrEquiv1 dot_S64x64x128_S64x64x128_S64x128x128_1_1_2_2_0_0 64 rfl rfl).symm k) = ix3 g k e := funext fun x => Fin.ext (by
    match x with
    | ⟨0, _⟩ => exact rhs_gram_0 _ _
    | ⟨1, _⟩ => exact (rhs_gram_1 _ _).trans hk
    | ⟨2, _⟩ => exact rhs_gram_2 _ _)
  rw [el, er]

/-- Linear layer: entry `(r, k)` is the sum over the features `e` of `a (r, e) · w (k, e)`. -/
theorem lin_apply (prec : Option ContractPrecision) (a : FVec Ideal S8192x128 .bf16) (w : FVec Ideal S128x128 .bf16) (r : Fin 8192) (k : Fin 128) :
    matmul dot_S8192x128_S128x128_S8192x128_1_1_0_0_n_n prec a w (constant S8192x128 .f32 0x00000000#32) (ix2 r k)
      = ∑ e : Fin 128, a (ix2 r e) * w (ix2 k e) := by
  show FloatOps.matmul dot_S8192x128_S128x128_S8192x128_1_1_0_0_n_n prec a w (constant S8192x128 .f32 0x00000000#32) (ix2 r k) = _
  rw [Ideal.matmul_constant_zero_apply, ← Equiv.sum_comp (contrEquiv1 dot_S8192x128_S128x128_S8192x128_1_1_0_0_n_n 128 rfl rfl).symm]
  refine Finset.sum_congr rfl fun e _ => ?_
  have hk := contrEquiv1_symm_val dot_S8192x128_S128x128_S8192x128_1_1_0_0_n_n 128 rfl rfl e
  have el : dot_S8192x128_S128x128_S8192x128_1_1_0_0_n_n.lhsIdx (ix2 r k) ((contrEquiv1 dot_S8192x128_S128x128_S8192x128_1_1_0_0_n_n 128 rfl rfl).symm e) = ix2 r e := funext fun x => Fin.ext (by
    match x with
    | ⟨0, _⟩ => exact lhs_lin_0 _ _
    | ⟨1, _⟩ => exact (lhs_lin_1 _ _).trans hk)
  have er : dot_S8192x128_S128x128_S8192x128_1_1_0_0_n_n.rhsIdx (ix2 r k) ((contrEquiv1 dot_S8192x128_S128x128_S8192x128_1_1_0_0_n_n 128 rfl rfl).symm e) = ix2 k e := funext fun x => Fin.ext (by
    match x with
    | ⟨0, _⟩ => exact rhs_lin_0 _ _
    | ⟨1, _⟩ => exact (rhs_lin_1 _ _).trans hk)
  rw [el, er]

/-- Pooling product: entry `(g, k, e)` is the sum over the rows `d` of `a (g, d, k) · q (g, d, e)`. -/
theorem pool_apply (prec : Option ContractPrecision) (a q : FVec Ideal S64x128x128 .bf16) (g : Fin 64) (k e : Fin 128) :
    matmul dot_S64x128x128_S64x128x128_S64x128x128_1_1_2_2_0_0 prec a q (constant S64x128x128 .f32 0x00000000#32) (ix3 g k e)
      = ∑ d : Fin 128, a (ix3 g d k) * q (ix3 g d e) := by
  show FloatOps.matmul dot_S64x128x128_S64x128x128_S64x128x128_1_1_2_2_0_0 prec a q (constant S64x128x128 .f32 0x00000000#32) (ix3 g k e) = _
  rw [Ideal.matmul_constant_zero_apply, ← Equiv.sum_comp (contrEquiv1 dot_S64x128x128_S64x128x128_S64x128x128_1_1_2_2_0_0 128 rfl rfl).symm]
  refine Finset.sum_congr rfl fun d _ => ?_
  have hk := contrEquiv1_symm_val dot_S64x128x128_S64x128x128_S64x128x128_1_1_2_2_0_0 128 rfl rfl d
  have el : dot_S64x128x128_S64x128x128_S64x128x128_1_1_2_2_0_0.lhsIdx (ix3 g k e) ((contrEquiv1 dot_S64x128x128_S64x128x128_S64x128x128_1_1_2_2_0_0 128 rfl rfl).symm d) = ix3 g d k := funext fun x => Fin.ext (by
    match x with
    | ⟨0, _⟩ => exact lhs_pool_0 _ _
    | ⟨1, _⟩ => exact (lhs_pool_1 _ _).trans hk
    | ⟨2, _⟩ => exact lhs_pool_2 _ _)
  have er : dot_S64x128x128_S64x128x128_S64x128x128_1_1_2_2_0_0.rhsIdx (ix3 g k e) ((contrEquiv1 dot_S64x128x128_S64x128x128_S64x128x128_1_1_2_2_0_0 128 rfl rfl).symm d) = ix3 g d e := funext fun x => Fin.ext (by
    match x with
    | ⟨0, _⟩ => exact rhs_pool_0 _ _
    | ⟨1, _⟩ => exact (rhs_pool_1 _ _).trans hk
    | ⟨2, _⟩ => exact rhs_pool_2 _ _)
  rw [el, er]

/-- Last layer: entry `(g, o)` is the sum over the flat positions `j` of `p (g, j) · w (o, j)`. -/
theorem last_apply (prec : Option ContractPrecision) (p : FVec Ideal S64x16384 .bf16) (w : FVec Ideal S10x16384 .bf16) (g : Fin 64) (o : Fin 10) :
    matmul dot_S64x16384_S10x16384_S64x10_1_1_0_0_n_n prec p w (constant S64x10 .f32 0x00000000#32) (ix2 g o)
      = ∑ j : Fin 16384, p (ix2 g j) * w (ix2 o j) := by
  show FloatOps.matmul dot_S64x16384_S10x16384_S64x10_1_1_0_0_n_n prec p w (constant S64x10 .f32 0x00000000#32) (ix2 g o) = _
  rw [Ideal.matmul_constant_zero_apply, ← Equiv.sum_comp (contrEquiv1 dot_S64x16384_S10x16384_S64x10_1_1_0_0_n_n 16384 rfl rfl).symm]
  refine Finset.sum_congr rfl fun j _ => ?_
  have hk := contrEquiv1_symm_val dot_S64x16384_S10x16384_S64x10_1_1_0_0_n_n 16384 rfl rfl j
  have el : dot_S64x16384_S10x16384_S64x10_1_1_0_0_n_n.lhsIdx (ix2 g o) ((contrEquiv1 dot_S64x16384_S10x16384_S64x10_1_1_0_0_n_n 16384 rfl rfl).symm j) = ix2 g j := funext fun x => Fin.ext (by
    match x with
    | ⟨0, _⟩ => exact lhs_last_0 _ _
    | ⟨1, _⟩ => exact (lhs_last_1 _ _).trans hk)
  have er : dot_S64x16384_S10x16384_S64x10_1_1_0_0_n_n.rhsIdx (ix2 g o) ((contrEquiv1 dot_S64x16384_S10x16384_S64x10_1_1_0_0_n_n 16384 rfl rfl).symm j) = ix2 o j := funext fun x => Fin.ext (by
    match x with
    | ⟨0, _⟩ => exact rhs_last_0 _ _
    | ⟨1, _⟩ => exact (rhs_last_1 _ _).trans hk)
  rw [el, er]

end Cert.KernelIdeal.Dots

end
-- ==== Proof.KernelBlock.lean ====
/-
  One block of the kernel — 64 graphs at a time — is the specification, graph by graph.

  The body's arithmetic is read in four stages: the quantized Gram stack; the attention stack (a linear layer applied
  to all 64 · 128 Gram rows at once, which is why the stack is flattened to [8192, 128] and restored); the pooled
  stack; and the last layer on the pooled matrices flattened row-major. Row `g·128 + d` of the flattened stack is row `d`
  of graph `g`, and flat position `j` of a pooled matrix is its entry `(j / 128, j % 128)`: these two row-major readings
  are all the index arithmetic there is. A change of float format is the identity on the extended reals.
-/
import proofs.«131009_j4526895530498_2_alg».proof.Proof.Gen.KernelIdeal.Skeleton
import proofs.«131009_j4526895530498_2_alg».proof.Proof.Spec
import proofs.«131009_j4526895530498_2_alg».proof.Proof.KernelDots
import Idealize.ShloMosaic.Lib.Pipeline.Value
import Idealize.ShloMosaic.Lib.ValueLayout
import Idealize.ShloMosaic.Lib.ValueIdx

noncomputable section

namespace Cert.KernelIdeal.Block

open Cert.KernelIdeal Cert.KernelIdeal.Gen Cert.KernelIdeal.Dots Cert.GramPool
open Idealize.ShloMosaic Idealize.ShloMosaic.ValueIdx

/-! ## The four stages of the body -/

/-- The quantized Gram stack of a block of 64 graphs. -/
def quantGram (v0 : FVec Ideal S64x64x128 .f32) : FVec Ideal S64x128x128 .f32 :=
  divf (roundeven (mulf (matmul dot_S64x64x128_S64x64x128_S64x128x128_1_1_2_2_0_0 (some .fp32) v0 v0 (constant S64x128x128 .f32 0x00000000#32))
      (broadcast S64x128x128 (Scalar.ofBits .f32 0x42C80000#32))))
    (broadcast S64x128x128 (Scalar.ofBits .f32 0x42C80000#32))

/-- The attention stack: the Gram rows of all 64 graphs through the linear layer at once. -/
def attnStack (q : FVec Ideal S64x128x128 .f32) (w : FVec Ideal S128x128 .bf16) (b : FVec Ideal S128 .f32) : FVec Ideal S64x128x128 .f32 :=
  shapeCast S64x128x128
    (addf (matmul dot_S8192x128_S128x128_S8192x128_1_1_0_0_n_n none (shapeCast S8192x128 (truncf .bf16 q bitsLt_bf16_f32) shapeCasts_S64x128x128_S8192x128)
        (shapeCast S128x128 w shapeCasts_S128x128_S128x128) (constant S8192x128 .f32 0x00000000#32))
      (broadcastTo S8192x128 (shapeCast S1x128 b shapeCasts_S128_S1x128) broadcasts_S1x128_S8192x128))
    shapeCasts_S8192x128_S64x128x128

/-- The pooled stack `attn^T · q`, graph by graph. -/
def poolStack (a q : FVec Ideal S64x128x128 .f32) : FVec Ideal S64x128x128 .f32 :=
  matmul dot_S64x128x128_S64x128x128_S64x128x128_1_1_2_2_0_0 none (truncf .bf16 a bitsLt_bf16_f32) (truncf .bf16 q bitsLt_bf16_f32) (constant S64x128x128 .f32 0x00000000#32)

/-- The last layer on the flattened pooled matrices. -/
def lastLayer (p : FVec Ideal S64x128x128 .f32) (w1 : FVec Ideal S10x16384 .bf16) (b1 : FVec Ideal S10 .f32) : FVec Ideal S64x10 .f32 :=
  addf (matmul dot_S64x16384_S10x16384_S64x10_1_1_0_0_n_n none (shapeCast S64x16384 (truncf .bf16 p bitsLt_bf16_f32) shapeCasts_S64x128x128_S64x16384)
      (shapeCast S10x16384 w1 shapeCasts_S10x16384_S10x16384) (constant S64x10 .f32 0x00000000#32))
    (broadcastTo S64x10 (shapeCast S1x10 b1 shapeCasts_S10_S1x10) broadcasts_S1x10_S64x10)

/-- The body's stored value is the four stages composed. -/
theorem payload_eq (v0 : Vec Ideal S64x64x128 .f32) (v9 : Vec Ideal S128x128 .bf16) (v12 : Vec Ideal S128 .f32)
    (v21 : Vec Ideal S10x16384 .bf16) (v24 : Vec Ideal S10 .f32) :
    k0_pay1 v0 v9 v12 v21 v24 = lastLayer (poolStack (attnStack (quantGram v0) v9 v12) (quantGram v0)) v21 v24 := rfl

/-! ## Each stage at an entry -/

/-- Entry `(g, d, e)` of the quantized Gram stack is graph `g`'s quantized Gram entry. -/
theorem quantGram_apply (v0 : FVec Ideal S64x64x128 .f32) (g : Fin 64) (d e : Fin 128) :
    quantGram v0 (ix3 g d e) = gramQ (fun n d' => v0 (ix3 g n d')) d e := by
  show Ideal.div (Ideal.liftRound Ideal.roundHalfEven
      (matmul dot_S64x64x128_S64x64x128_S64x128x128_1_1_2_2_0_0 (some .fp32) v0 v0 (constant S64x128x128 .f32 0x00000000#32) (ix3 g d e) * Ideal.ofBits .f32 0x42C80000#32))
      (Ideal.ofBits .f32 0x42C80000#32) = _
  rw [gram_apply]
  rfl

/-- Entry `(g, d, k)` of the attention stack: Gram row `d` of graph `g` against weight row `k`, plus the bias. -/
theorem attnStack_apply (q : FVec Ideal S64x128x128 .f32) (w : FVec Ideal S128x128 .bf16) (b : FVec Ideal S128 .f32)
    (g : Fin 64) (d k : Fin 128) :
    attnStack q w b (ix3 g d k) = (∑ e : Fin 128, q (ix3 g d e) * w (ix2 k e)) + b (ix1 k) := by
  have hr : g.val * 128 + d.val < 8192 := by have := g.isLt; have := d.isLt; omega
  unfold attnStack
  refine (shapeCast_apply _ shapeCasts_S8192x128_S64x128x128 (ix3 g d k) (ix2 (⟨g.val * 128 + d.val, hr⟩ : Fin 8192) k) ?_).trans ?_
  · rw [Shape.rowMajor_val_two, Shape.rowMajor_val_three]; rfl
  rw [addf_apply, lin_apply]
  refine congrArg₂ (fun a b : EReal => a + b) (Finset.sum_congr rfl fun e _ => ?_) ?_
  · refine congrArg₂ (fun a b : EReal => a * b) ?_ ?_
    · refine (shapeCast_apply _ shapeCasts_S64x128x128_S8192x128 (ix2 (⟨g.val * 128 + d.val, hr⟩ : Fin 8192) e) (ix3 g d e) ?_).trans rfl
      rw [Shape.rowMajor_val_two, Shape.rowMajor_val_three]; rfl
    · rw [shapeCast_self]
  · refine (broadcastTo_apply _ broadcasts_S1x128_S8192x128 (ix2 (⟨g.val * 128 + d.val, hr⟩ : Fin 8192) k) (ix2 (0 : Fin 1) k) ?_).trans ?_
    · intro a
      match a with
      | ⟨0, _⟩ => show 0 = if (1 : Nat) = 1 then 0 else _; rw [if_pos rfl]
      | ⟨1, _⟩ => show k.val = if (128 : Nat) = 1 then 0 else k.val; rw [if_neg (by decide)]
    · exact shapeCast_a_1a_apply b shapeCasts_S128_S1x128 0 k

/-- Entry `(g, k, e)` of the pooled stack. -/
theorem poolStack_apply (a q : FVec Ideal S64x128x128 .f32) (g : Fin 64) (k e : Fin 128) :
    poolStack a q (ix3 g k e) = ∑ d : Fin 128, a (ix3 g d k) * q (ix3 g d e) := by
  unfold poolStack
  rw [pool_apply]
  rfl

/-- Entry `(g, o)` of the last layer: the pooled matrix of graph `g` read row-major against weight row `o`, plus the bias. -/
theorem lastLayer_apply (p : FVec Ideal S64x128x128 .f32) (w1 : FVec Ideal S10x16384 .bf16) (b1 : FVec Ideal S10 .f32)
    (g : Fin 64) (o : Fin 10) :
    lastLayer p w1 b1 (ix2 g o)
      = (∑ j : Fin 16384, p (ix3 g (⟨j.val / 128, by have := j.isLt; omega⟩ : Fin 128) (⟨j.val % 128, Nat.mod_lt _ (by decide)⟩ : Fin 128)) * w1 (ix2 o j))
        + b1 (ix1 o) := by
  unfold lastLayer
  rw [addf_apply, last_apply]
  refine congrArg₂ (fun a b : EReal => a + b) (Finset.sum_congr rfl fun j _ => ?_) ?_
  · refine congrArg₂ (fun a b : EReal => a * b) ?_ ?_
    · refine (shapeCast_apply _ shapeCasts_S64x128x128_S64x16384 (ix2 g j)
        (ix3 g (⟨j.val / 128, by have := j.isLt; omega⟩ : Fin 128) (⟨j.val % 128, Nat.mod_lt _ (by decide)⟩ : Fin 128)) ?_).trans rfl
      rw [Shape.rowMajor_val_two, Shape.rowMajor_val_three]
      show (g.val * 128 + j.val / 128) * 128 + j.val % 128 = g.val * 16384 + j.val
      omega
    · rw [shapeCast_self]
  · refine (broadcastTo_apply _ broadcasts_S1x10_S64x10 (ix2 g o) (ix2 (0 : Fin 1) o) ?_).trans ?_
    · intro a
      match a with
      | ⟨0, _⟩ => show 0 = if (1 : Nat) = 1 then 0 else _; rw [if_pos rfl]
      | ⟨1, _⟩ => show o.val = if (10 : Nat) = 1 then 0 else o.val; rw [if_neg (by decide)]
    · exact shapeCast_a_1a_apply b1 shapeCasts_S10_S1x10 0 o

/-! ## The block -/

/-- Row `g` of what a block stores is the specification of graph `g` of the block, from that graph's slice of the
    loaded features and the whole weights and biases. -/
theorem block_apply (v0 : Vec Ideal S64x64x128 .f32) (v9 : Vec Ideal S128x128 .bf16) (v12 : Vec Ideal S128 .f32)
    (v21 : Vec Ideal S10x16384 .bf16) (v24 : Vec Ideal S10 .f32) (g : Fin 64) (o : Fin 10) :
    k0_pay1 v0 v9 v12 v21 v24 (ix2 g o) = result (G := 64) v0 v9 v12 v21 v24 g o := by
  rw [payload_eq, lastLayer_apply]
  unfold result out
  refine congrArg₂ (fun a b : EReal => a + b) (Finset.sum_congr rfl fun j _ => ?_) rfl
  refine congrArg₂ (fun a b : EReal => a * b) ?_ rfl
  rw [poolStack_apply]
  unfold pooledFlat pooled
  refine Finset.sum_congr rfl fun d _ => ?_
  rw [attnStack_apply, quantGram_apply]
  unfold attn
  simp only [quantGram_apply]

end Cert.KernelIdeal.Block

end
-- ==== Proof.BlocksToArray.lean ====
/-
  From blocks to the whole array.

  The grid has 32 points; point `t` reads graphs `64 t … 64 t + 63` of the features and the whole of the two weight
  matrices and the two biases (the weight matrices as the host program left them after its change of float format,
  which is the identity on the extended reals), and writes rows `64 t … 64 t + 63` of the result. Row `g` of a block
  is the specification of graph `64 t + g`, so every point writes a block of ONE function of the argument arrays,
  and the 32 blocks cover the result: row `r` lies in the block of point `r / 64`.
-/
import proofs.«131009_j4526895530498_2_alg».proof.Proof.Gen.KernelIdeal.Value
import proofs.«131009_j4526895530498_2_alg».proof.Proof.KernelBlock
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen Cert.KernelIdeal.Block Cert.GramPool
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array as one function of the argument arrays at launch: row `r` is the specification of graph `r`. -/
def whole (c : Dev nD) : S2048x10.Idx → EReal := fun i =>
  result (G := 2048) (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)

/-! ## The two arrays the host program writes before the region -/

/-- The first weight matrix after the host's change of float format is the argument itself. -/
theorem V_main_v0 (c : Dev nD) :
    (V m c main_v0 : S128x128.Idx → EReal) = (m ((c : Thread nD τ).loc main_arg1) : S128x128.Idx → EReal) := by
  dsimp only [Gen.V, Gen.hostOps0]; after_results; rfl

/-- The second weight matrix likewise. -/
theorem V_main_v1 (c : Dev nD) :
    (V m c main_v1 : S10x16384.Idx → EReal) = (m ((c : Thread nD τ).loc main_arg3) : S10x16384.Idx → EReal) := by
  dsimp only [Gen.V, Gen.hostOps0]; after_results; rfl

/-! ## Where each window's block sits -/

/-- The index maps over the grid: the feature window moves with the result window along the graph axis and sits at
    block 0 on the others; the four whole-array windows sit at block 0. -/
theorem idx_facts : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 31 :=
  (by decide +kernel : ∀ t : Fin grid0.N, _)

/-- Every one of the 32 row blocks of the result is some point's. -/
theorem idx_onto : ∀ q : Fin 32, ∃ t : Fin cfg0.N, win0_5.index t = ![q.val, 0] :=
  (by decide +kernel : ∀ q : Fin 32, ∃ t : Fin grid0.N, win0_5.index t = ![q.val, 0])

/-- Graph `g` of the feature block at point `t` is graph `64·(block index) + g` of the argument. -/
theorem features_block (c : Dev nD) (t : Fin cfg0.N) (g : Fin 64) (n : Fin 64) (d : Fin 128) (r : Fin 2048)
    (hr : r.val = win0_5.index t (0 : Fin 2) * 64 + g.val) :
    (iblk m c 0 t : Vec Ideal S64x64x128 .f32) (ix3 g n d)
      = (m ((c : Thread nD τ).loc main_arg0) : S2048x64x128.Idx → EReal) (ix3 r n d) := by
  obtain ⟨e0, e1, e2, -⟩ := idx_facts t
  unfold iblk
  rw [View.read_apply]
  show V m c main_arg0 _ = _
  refine (congrFun (V_main_arg0 m c) _).trans (congrArg _ (funext fun a => Fin.ext ?_))
  match a with
  | ⟨0, _⟩ => show win0_0.index t (0 : Fin 3) * 64 + 1 * g.val = r.val; omega
  | ⟨1, _⟩ => show win0_0.index t (1 : Fin 3) * 64 + 1 * n.val = n.val; omega
  | ⟨2, _⟩ => show win0_0.index t (2 : Fin 3) * 128 + 1 * d.val = d.val; omega

/-- The first weight matrix's block is the whole argument. -/
theorem weights_block (c : Dev nD) (t : Fin cfg0.N) (k e : Fin 128) :
    (iblk m c 1 t : Vec Ideal S128x128 .bf16) (ix2 k e) = (m ((c : Thread nD τ).loc main_arg1) : S128x128.Idx → EReal) (ix2 k e) := by
  obtain ⟨-, -, -, e0, e1, -⟩ := idx_facts t
  unfold iblk
  rw [View.read_apply]
  show V m c main_v0 _ = _
  refine (congrFun (V_main_v0 m c) _).trans (congrArg _ (funext fun a => Fin.ext ?_))
  match a with
  | ⟨0, _⟩ => show win0_1.index t (0 : Fin 2) * 128 + 1 * k.val = k.val; omega
  | ⟨1, _⟩ => show win0_1.index t (1 : Fin 2) * 128 + 1 * e.val = e.val; omega

/-- The first bias's block is the whole argument. -/
theorem bias_block (c : Dev nD) (t : Fin cfg0.N) (k : Fin 128) :
    (iblk m c 2 t : Vec Ideal S128 .f32) (ix1 k) = (m ((c : Thread nD τ).loc main_arg2) : S128.Idx → EReal) (ix1 k) := by
  obtain ⟨-, -, -, -, -, e0, -⟩ := idx_facts t
  unfold iblk
  rw [View.read_apply]
  show V m c main_arg2 _ = _
  refine (congrFun (V_main_arg2 m c) _).trans (congrArg _ (funext fun a => Fin.ext ?_))
  match a with
  | ⟨0, _⟩ => show win0_2.index t (0 : Fin 1) * 128 + 1 * k.val = k.val; omega

/-- The second weight matrix's block is the whole argument. -/
theorem weights1_block (c : Dev nD) (t : Fin cfg0.N) (p : Fin 10) (j : Fin 16384) :
    (iblk m c 3 t : Vec Ideal S10x16384 .bf16) (ix2 p j) = (m ((c : Thread nD τ).loc main_arg3) : S10x16384.Idx → EReal) (ix2 p j) := by
  obtain ⟨-, -, -, -, -, -, e0, e1, -⟩ := idx_facts t
  unfold iblk
  rw [View.read_apply]
  show V m c main_v1 _ = _
  refine (congrFun (V_main_v1 m c) _).trans (congrArg _ (funext fun a => Fin.ext ?_))
  match a with
  | ⟨0, _⟩ => show win0_3.index t (0 : Fin 2) * 10 + 1 * p.val = p.val; omega
  | ⟨1, _⟩ => show win0_3.index t (1 : Fin 2) * 16384 + 1 * j.val = j.val; omega

/-- The second bias's block is the whole argument. -/
theorem bias1_block (c : Dev nD) (t : Fin cfg0.N) (p : Fin 10) :
    (iblk m c 4 t : Vec Ideal S10 .f32) (ix1 p) = (m ((c : Thread nD τ).loc main_arg4) : S10.Idx → EReal) (ix1 p) := by
  obtain ⟨-, -, -, -, -, -, -, -, e0, -⟩ := idx_facts t
  unfold iblk
  rw [View.read_apply]
  show V m c main_arg4 _ = _
  refine (congrFun (V_main_arg4 m c) _).trans (congrArg _ (funext fun a => Fin.ext ?_))
  match a with
  | ⟨0, _⟩ => show win0_4.index t (0 : Fin 1) * 10 + 1 * p.val = p.val; omega

/-! ## What a point writes back, the cover, the array -/

/-- What point `t` writes back is block `t` of `whole`. -/
theorem flushed_eq (c : Dev nD) (t : Fin cfg0.N) :
    (dats m 0 c).flushed 5 t = ((cfg0.win 5).blk t).view.read (Elt Ideal) (whole m c) := by
  rw [Cert.KernelIdeal.Value.flushed5]
  unfold out0_5
  rw [View.canon_unit_zero hz2]
  simp only [View.ld_unit_zero (S := S64x64x128) hz3, View.ld_unit_zero (S := S128x128) hz2, View.ld_unit_zero (S := S128) hz1,
    View.ld_unit_zero (S := S10x16384) hz2, View.ld_unit_zero (S := S10) hz1]
  obtain ⟨-, -, -, -, -, -, -, -, -, e51, e50⟩ := idx_facts t
  funext j
  obtain ⟨g, o, rfl⟩ : ∃ (g : Fin 64) (o : Fin 10), j = ix2 g o := ⟨j 0, j 1, eq_ix2 j⟩
  show k0_pay1 (iblk m c 0 t) (iblk m c 1 t) (iblk m c 2 t) (iblk m c 3 t) (iblk m c 4 t) (ix2 g o)
    = whole m c (((cfg0.win 5).blk t).view.emb (ix2 g o))
  refine (block_apply (iblk m c 0 t) (iblk m c 1 t) (iblk m c 2 t) (iblk m c 3 t) (iblk m c 4 t) g o).trans ?_
  have hg := g.isLt
  refine result_ext (iblk m c 0 t) (m ((c : Thread nD τ).loc main_arg0)) (iblk m c 1 t) (m ((c : Thread nD τ).loc main_arg1))
    (iblk m c 2 t) (m ((c : Thread nD τ).loc main_arg2)) (iblk m c 3 t) (m ((c : Thread nD τ).loc main_arg3))
    (iblk m c 4 t) (m ((c : Thread nD τ).loc main_arg4)) g ((((cfg0.win 5).blk t).view.emb (ix2 g o)) 0) o
    ((((cfg0.win 5).blk t).view.emb (ix2 g o)) 1) ?_ ?_ ?_ ?_ ?_ ?_
  · exact Fin.ext (by show win0_5.index t (1 : Fin 2) * 10 + 1 * o.val = o.val; omega)
  · exact fun n d => features_block m c t g n d _ (by show win0_5.index t (0 : Fin 2) * 64 + 1 * g.val = _; omega)
  · exact fun k e => weights_block m c t k e
  · exact fun k => bias_block m c t k
  · exact fun p j => weights1_block m c t p j
  · exact fun p => bias1_block m c t p

/-- An index of the result is in point `t`'s block iff each coordinate is in the block's range on its axis. -/
theorem mem_blk (t : Fin cfg0.N) (i : S2048x10.Idx) :
    i ∈ ((cfg0.win 5).blk t).view.set ↔ ∀ a : Fin 2, win0_5.index t a * S64x10.size a ≤ (i a).val ∧ (i a).val < win0_5.index t a * S64x10.size a + S64x10.size a := by
  show i ∈ ((View.whole main_v2).slice (win0_5.rect t)).set ↔ _
  rw [View.set_slice_whole, Rect.mem_set_unit]
  exact Iff.rfl

/-- Row `r` of the result lies in the block of the point whose block index is `r / 64`. -/
theorem cover (i : S2048x10.Idx) : ∃ t : Fin cfg0.N, (cfg0.win 5).flush t = true ∧ i ∈ ((cfg0.win 5).blk t).view.set := by
  have hi0 : (i 0).val < 2048 := (i 0).isLt
  have hi1 : (i 1).val < 10 := (i 1).isLt
  obtain ⟨t, ht⟩ := idx_onto ⟨(i 0).val / 64, by omega⟩
  have q0 : win0_5.index t (0 : Fin 2) = (i 0).val / 64 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 64 ≤ (i 0).val ∧ (i 0).val < win0_5.index t (0 : Fin 2) * 64 + 64; omega
  | ⟨1, _⟩ => show win0_5.index t (1 : Fin 2) * 10 ≤ (i 1).val ∧ (i 1).val < win0_5.index t (1 : Fin 2) * 10 + 10; omega

/-- The result array after the run is `whole`. -/
theorem final (c : Dev nD) : (dats m 0 c).arrAt 5 cfg0.N = whole m c :=
  (dats m 0 c).arrAt_eq_of_cover 5 (whole m c) (fun t _ => flushed_eq m c t) cover

/-- The kernel's run: the result array at `whole`, the arguments unchanged. -/
theorem run : θ_run defs (onTc (τ := τ) (main (F := Ideal))) ⟨m, fun _ => 0, ρ⟩ fun r => ∀ c : Dev nD,
      r.2.mem ((c : Thread nD τ).loc main_v2) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefResult.lean ====
/-
  The reference program computes the specification, graph by graph.

  Its run is a chain of whole-array operations over all 2048 graphs: the batched Gram product, the two-decimal
  rounding, the linear layer as a product against the weight matrix with the bias broadcast along the last axis, the
  batched pooling product, a row-major flattening, and the last layer as a product against the transposed weights with
  the bias broadcast. Read at one entry, each stage touches graph `g` only, and the operand indices are those of the
  specification: the flattening sends flat position `g·16384 + j` to entry `(g, j / 128, j % 128)`.
-/
import proofs.«131009_j4526895530498_2_alg».proof.Proof.Gen.ReferenceIdeal.Read
import proofs.«131009_j4526895530498_2_alg».proof.Proof.Spec
import Idealize.ShloMosaic.Lib.ValueIdx

noncomputable section

namespace Cert.ReferenceIdeal.RefValue

open Cert.ReferenceIdeal Cert.ReferenceIdeal.Read Cert.GramPool
open Idealize.ShloMosaic Idealize.ShloMosaic.ValueIdx

variable (x0 : (⟨S2048x64x128, .f32⟩ : BufTy).Contents (Elt Ideal)) (x1 : (⟨S128x128, .f32⟩ : BufTy).Contents (Elt Ideal))
  (x2 : (⟨S128, .f32⟩ : BufTy).Contents (Elt Ideal)) (x3 : (⟨S10x16384, .f32⟩ : BufTy).Contents (Elt Ideal))
  (x4 : (⟨S10, .f32⟩ : BufTy).Contents (Elt Ideal))

/-- The rounded Gram stack at `(g, d, e)` is graph `g`'s quantized Gram entry. -/
theorem quantGram_apply (g : Fin 2048) (d e : Fin 128) :
    val_main_v5 (F := Ideal) x0 (ix3 g d e) = gramQ (fun n d' => x0 (ix3 g n d')) d e := by
  rw [val_main_v5_apply, val_main_v3_apply, val_main_v2_apply, val_main_v0_apply, val_main_v1_apply, val_main_v4_apply,
    val_main_cst_apply, val_main_cst_0_apply]
  have el : ∀ n : Fin 64, lidx_main_v0 (ix3 g d e) n = ix3 g n d := fun n => funext fun a => by
    match a with | ⟨0, _⟩ => rfl | ⟨1, _⟩ => rfl | ⟨2, _⟩ => rfl
  have er : ∀ n : Fin 64, ridx_main_v0 (ix3 g d e) n = ix3 g n e := fun n => funext fun a => by
    match a with | ⟨0, _⟩ => rfl | ⟨1, _⟩ => rfl | ⟨2, _⟩ => rfl
  simp only [el, er]
  rfl

/-- The attention stack at `(g, d, k)`. -/
theorem attn_apply (g : Fin 2048) (d k : Fin 128) :
    val_main_v9 (F := Ideal) x0 x1 x2 (ix3 g d k)
      = attn (fun n d' => x0 (ix3 g n d')) (fun k' e => x1 (ix2 k' e)) (fun k' => x2 (ix1 k')) d k := by
  rw [val_main_v9_apply, val_main_v6_apply, val_main_v8_apply, val_main_v7_apply]
  have el : ∀ e : Fin 128, lidx_main_v6 (ix3 g d k) e = ix3 g d e := fun e => funext fun a => by
    match a with | ⟨0, _⟩ => rfl | ⟨1, _⟩ => rfl | ⟨2, _⟩ => rfl
  have er : ∀ e : Fin 128, ridx_main_v6 (ix3 g d k) e = ix2 k e := fun e => funext fun a => by
    match a with | ⟨0, _⟩ => rfl | ⟨1, _⟩ => rfl
  have eb : idx_main_v7 (idx_main_v8 (ix3 g d k)) = ix1 k := funext fun a => by
    match a with | ⟨0, _⟩ => rfl
  simp only [el, er, eb, quantGram_apply]
  rfl

/-- The pooled stack at `(g, k, e)`. -/
theorem pooled_apply (g : Fin 2048) (k e : Fin 128) :
    val_main_v10 (F := Ideal) x0 x1 x2 (ix3 g k e)
      = pooled (fun n d' => x0 (ix3 g n d')) (fun k' e' => x1 (ix2 k' e')) (fun k' => x2 (ix1 k')) k e := by
  rw [val_main_v10_apply]
  have el : ∀ d : Fin 128, lidx_main_v10 (ix3 g k e) d = ix3 g d k := fun d => funext fun a => by
    match a with | ⟨0, _⟩ => rfl | ⟨1, _⟩ => rfl | ⟨2, _⟩ => rfl
  have er : ∀ d : Fin 128, ridx_main_v10 (ix3 g k e) d = ix3 g d e := fun d => funext fun a => by
    match a with | ⟨0, _⟩ => rfl | ⟨1, _⟩ => rfl | ⟨2, _⟩ => rfl
  simp only [el, er, attn_apply, quantGram_apply]
  rfl

/-- The flattened pooled stack at `(g, j)` is graph `g`'s pooled matrix read row-major at `j`. -/
theorem pooledFlat_apply (g : Fin 2048) (j : Fin 16384) :
    val_main_v11 (F := Ideal) x0 x1 x2 (ix2 g j)
      = pooledFlat (fun n d' => x0 (ix3 g n d')) (fun k' e' => x1 (ix2 k' e')) (fun k' => x2 (ix1 k')) j := by
  rw [val_main_v11_apply]
  have hg := g.isLt
  have hj := j.isLt
  have ei : idx_main_v11 (ix2 g j)
      = ix3 g (⟨j.val / 128, by omega⟩ : Fin 128) (⟨j.val % 128, Nat.mod_lt _ (by decide)⟩ : Fin 128) := funext fun a => Fin.ext (by
    match a with
    | ⟨0, _⟩ => show (g.val * 16384 + j.val) / 16384 = g.val; omega
    | ⟨1, _⟩ => show (g.val * 16384 + j.val) / 128 % 128 = j.val / 128; omega
    | ⟨2, _⟩ => show (g.val * 16384 + j.val) % 128 = j.val % 128; omega)
  rw [ei, pooled_apply]
  rfl

/-- The reference's result at `(g, o)`. -/
theorem result_apply (g : Fin 2048) (o : Fin 10) :
    val_main_v16 (F := Ideal) x0 x1 x2 x3 x4 (ix2 g o) = result (G := 2048) x0 x1 x2 x3 x4 g o := by
  rw [val_main_v16_apply, val_main_v13_apply, val_main_v15_apply, val_main_v14_apply]
  have el : ∀ j : Fin 16384, lidx_main_v13 (ix2 g o) j = ix2 g j := fun j => funext fun a => by
    match a with | ⟨0, _⟩ => rfl | ⟨1, _⟩ => rfl
  have er : ∀ j : Fin 16384, val_main_v12 (F := Ideal) x3 (ridx_main_v13 (ix2 g o) j) = x3 (ix2 o j) := fun j => by
    rw [val_main_v12_apply]
    exact congrArg x3 (funext fun a => by match a with | ⟨0, _⟩ => rfl | ⟨1, _⟩ => rfl)
  have eb : idx_main_v14 (idx_main_v15 (ix2 g o)) = ix1 o := funext fun a => by
    match a with | ⟨0, _⟩ => rfl
  simp only [el, er, eb, pooledFlat_apply]
  rfl

/-- The reference's result array is the specification at every index. -/
theorem result_eq :
    val_main_v16 (F := Ideal) x0 x1 x2 x3 x4 = fun i => result (G := 2048) x0 x1 x2 x3 x4 (i 0) (i 1) := by
  funext i
  obtain ⟨g, o, rfl⟩ : ∃ (g : Fin 2048) (o : Fin 10), i = ix2 g o := ⟨i 0, i 1, eq_ix2 i⟩
  exact result_apply x0 x1 x2 x3 x4 g o

end Cert.ReferenceIdeal.RefValue

end
-- ==== Proof.lean ====
/-
  A graph classifier's readout, 2048 graphs of 64 nodes with 128 features each: per graph the Gram matrix of the
  features rounded to two decimals, attention coefficients from a linear layer on its rows, the pooled matrix
  `attn^T · gram`, and a last linear layer on the pooled matrix flattened. The kernel does this 64 graphs per grid point,
  with the two weight matrices passed through a change of float format first; the reference does it on all graphs at
  once. On the extended reals a change of float format is the identity and every matrix product is the plain sum of
  products, so both programs compute ONE function of the arguments, entry by entry (Proof/Spec.lean): the kernel's
  blocks are its restrictions to 64 rows (Proof/KernelBlock.lean, Proof/BlocksToArray.lean), the reference's stages are
  its stages (Proof/RefResult.lean). No law beyond the two programs' index conventions is used; in particular the
  inputs' finiteness is never needed.
  The three frames: the kernels' are the generated frame runs, the reference's its generated run with the result
  dropped. The idealization rewrote nothing, so there is nothing to preserve.
-/
import proofs.«131009_j4526895530498_2_alg».proof.Defs
import proofs.«131009_j4526895530498_2_alg».proof.Proof.Gen.Kernel
import proofs.«131009_j4526895530498_2_alg».proof.Proof.Gen.Kernel.Skeleton
import proofs.«131009_j4526895530498_2_alg».proof.Proof.Gen.Kernel.Launch
import proofs.«131009_j4526895530498_2_alg».proof.Proof.Gen.Kernel.Points
import proofs.«131009_j4526895530498_2_alg».proof.Proof.Gen.Kernel.Frame
import proofs.«131009_j4526895530498_2_alg».proof.Proof.Gen.KernelIdeal
import proofs.«131009_j4526895530498_2_alg».proof.Proof.Gen.KernelIdeal.Skeleton
import proofs.«131009_j4526895530498_2_alg».proof.Proof.Gen.KernelIdeal.Launch
import proofs.«131009_j4526895530498_2_alg».proof.Proof.Gen.KernelIdeal.Points
import proofs.«131009_j4526895530498_2_alg».proof.Proof.Gen.KernelIdeal.Frame
import proofs.«131009_j4526895530498_2_alg».proof.Proof.Gen.ReferenceIdeal
import proofs.«131009_j4526895530498_2_alg».proof.Proof.Gen.Pre_finite_inputs
import proofs.«131009_j4526895530498_2_alg».proof.Proof.Gen.KernelIdeal.Value
import proofs.«131009_j4526895530498_2_alg».proof.Proof.Gen.ReferenceIdeal.Run
import proofs.«131009_j4526895530498_2_alg».proof.Proof.Gen.ReferenceIdeal.Read
import proofs.«131009_j4526895530498_2_alg».proof.Proof.BlocksToArray
import proofs.«131009_j4526895530498_2_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification of the argument arrays: the kernel's by its blocks, the
    reference's stage by stage, and the arguments agree. -/
theorem algebraic : Cert.algebraic_KernelIdeal_ReferenceIdeal := by
  intro m ρ m' ρ' _ hagree
  refine ⟨fun c => Cert.KernelIdeal.Whole.whole m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
